-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S512x512 : Shape := ⟨2, ![512, 512]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S256x512 .f32) (main_arg1 : FVec F S512x512 .f32) (main_arg2 : FVec F S512x512 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S256x512 : Shape := ⟨2, ![256, 512]⟩
abbrev S512x512 : Shape := ⟨2, ![512, 512]⟩
abbrev S256x512x1 : Shape := ⟨3, ![256, 512, 1]⟩
abbrev S256x512x512 : Shape := ⟨3, ![256, 512, 512]⟩
abbrev S16x512x1 : Shape := ⟨3, ![16, 512, 1]⟩
abbrev S16x512x512 : Shape := ⟨3, ![16, 512, 512]⟩
abbrev S1x512x1 : Shape := ⟨3, ![1, 512, 1]⟩
abbrev S512x1 : Shape := ⟨2, ![512, 1]⟩
abbrev S1x512x512 : Shape := ⟨3, ![1, 512, 512]⟩

abbrev nBuf : Space → Nat
  | .hbm => 5
  | .vmem => 6
  | .smem => 0
  | _ => 0

abbrev bufTy : (tb : Table) → Fin (tcTables nBuf tb) → BufTy
  | .hbm, ⟨0, _⟩ => ⟨S256x512, .f32⟩
  | .hbm, ⟨1, _⟩ => ⟨S512x512, .f32⟩
  | .hbm, ⟨2, _⟩ => ⟨S512x512, .f32⟩
  | .hbm, ⟨3, _⟩ => ⟨S256x512x1, .f32⟩
  | .hbm, ⟨4, _⟩ => ⟨S256x512x512, .f32⟩
  | .local _ .vmem, ⟨0, _⟩ => ⟨S16x512x1, .f32⟩
  | .local _ .vmem, ⟨1, _⟩ => ⟨S16x512x1, .f32⟩
  | .local _ .vmem, ⟨2, _⟩ => ⟨S512x512, .f32⟩
  | .local _ .vmem, ⟨3, _⟩ => ⟨S512x512, .f32⟩
  | .local _ .vmem, ⟨4, _⟩ => ⟨S16x512x512, .f32⟩
  | .local _ .vmem, ⟨5, _⟩ => ⟨S16x512x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v2 : BitVec 32 := Scalar.addi c0_i32 c16_i32
  let c1_i32 : BitVec 32 := 1#32
  ⟨c0_i32, v2, c1_i32⟩
def k0_off1 (k0_t1 : Fin k0_t1_loop.trips) : Fin 3 → Nat :=
  let c0_i32 : BitVec 32 := 0#32
  let c1_i32 : BitVec 32 := 1#32
  let arg5 : BitVec 32 := Scf.iv c0_i32 c1_i32 k0_t1
  let v3 : Index := Scalar.indexCast arg5
  let c0_4 : Index := 0#32
  let c0_5 : Index := 0#32
  ![v3.toNat, 0, 0]
def k0_off2 (k0_t1 : Fin k0_t1_loop.trips) : Fin 3 → Nat :=
  let c0_i32 : BitVec 32 := 0#32
  let c1_i32 : BitVec 32 := 1#32
  let arg5 : BitVec 32 := Scf.iv c0_i32 c1_i32 k0_t1
  let v12 : Index := Scalar.indexCast arg5
  let c0_6 : Index := 0#32
  let c0_7 : Index := 0#32
  ![v12.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S256x512_S256x512x1 : S256x512.ShapeCasts S256x512x1
  inb_S512x512_S512x512_0_0 : ∀ a, (![0, 0] : Fin 2 → Nat) a + S512x512.size a ≤ S512x512.size a
  h_S512x512 : 0 < S512x512.numel
  h_S1x512x1 : 0 < S1x512x1.numel
  shapeCasts_S1x512x1_S512x1 : S1x512x1.ShapeCasts S512x1
  shapeCasts_S512x1_S512x1 : S512x1.ShapeCasts S512x1
  broadcasts_S512x1_S512x512 : S512x1.Broadcasts S512x512
  h_S1x512x512 : 0 < S1x512x512.numel
  shapeCasts_S1x512x512_S512x512 : S1x512x512.ShapeCasts S512x512
  shapeCasts_S512x512_S1x512x512 : S512x512.ShapeCasts S1x512x512
  hrank0 : 0 < grid0.rank
  k0_t1_ok : k0_t1_loop.OK
  k0_off1_inb : ∀ k0_t1 : Fin k0_t1_loop.trips, ∀ a, (k0_off1 k0_t1) a + S1x512x1.size a ≤ S16x512x1.size a
  k0_off2_inb : ∀ k0_t1 : Fin k0_t1_loop.trips, ∀ a, (k0_off2 k0_t1) a + S1x512x512.size a ≤ S16x512x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x1.size a ≤ S256x512x1.size a
  hwx0_0 : ∀ i : grid0.Coords, EltTy.bits .f32 = 32 ∨ (Rect.block (s := S256x512x1) S16x512x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x512x512.size a ≤ S256x512x512.size a
  hwx0_3 : ∀ i : grid0.Coords, EltTy.bits .f32 = 32 ∨ (Rect.block (s := S256x512x512) S16x512x512.size (cc0_transform_3 i) (hinb0_3 i)).WholeWords (EltTy.packing .f32)

variable [Facts₀]

abbrev win0_0 : Pipeline.Window sig grid0 :=
  Pipeline.Window.ofSpec (Memref.whole main_v0) S16x512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x512 : Shape := ⟨2, ![256, 512]⟩
abbrev S512x512 : Shape := ⟨2, ![512, 512]⟩
abbrev S256x512x1 : Shape := ⟨3, ![256, 512, 1]⟩
abbrev S1x512x512 : Shape := ⟨3, ![1, 512, 512]⟩
abbrev S256x512x512 : Shape := ⟨3, ![256, 512, 512]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x512, .f32⟩
  | .hbm, ⟨2, _⟩ => ⟨S512x512, .f32⟩
  | .hbm, ⟨3, _⟩ => ⟨S256x512x1, .f32⟩
  | .hbm, ⟨4, _⟩ => ⟨S1x512x512, .f32⟩
  | .hbm, ⟨5, _⟩ => ⟨S256x512x512, .f32⟩
  | .hbm, ⟨6, _⟩ => ⟨S256x512x512, .f32⟩
  | .hbm, ⟨7, _⟩ => ⟨S256x512x512, .f32⟩
  | .hbm, ⟨8, _⟩ => ⟨S1x512x512, .f32⟩
  | .hbm, ⟨9, _⟩ => ⟨S256x512x512, .f32⟩
  | .hbm, ⟨10, _⟩ => ⟨S256x512x512, .f32⟩
  | .hbm, ⟨11, _⟩ => ⟨S_, .f32⟩
  | .hbm, ⟨12, _⟩ => ⟨S256x512x512, .f32⟩
  | .hbm, ⟨13, _⟩ => ⟨S256x512x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_cst : Ref sig .tc := ⟨.hbm, 11, rfl⟩
abbrev main_call0_v0 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S256x512_S256x512x1_0_1 : S256x512.BroadcastsInDim S256x512x1 (![0, 1] : Fin 2 → Fin S256x512x1.rank)
  bcast_S512x512_S1x512x512_1_2 : S512x512.BroadcastsInDim S1x512x512 (![1, 2] : Fin 2 → Fin S1x512x512.rank)
  bcast_S256x512x1_S256x512x512_0_1_2 : S256x512x1.BroadcastsInDim S256x512x512 (![0, 1, 2] : Fin 3 → Fin S256x512x512.rank)
  bcast_S1x512x512_S256x512x512_0_1_2 : S1x512x512.BroadcastsInDim S256x512x512 (![0, 1, 2] : Fin 3 → Fin S256x512x512.rank)
  bcast_S_S256x512x512 : S_.BroadcastsInDim S256x512x512 (![] : Fin 0 → Fin S256x512x512.rank)

variable [Facts₀]

class Facts : Prop extends Facts₀ where

variable [Facts]
-- ==== Proof.Spec.lean ====
/-
  The result both programs compute, as one function of the three argument arrays.

  With x of extents [256, 512] and W, b of extents [512, 512], entry (r, i, d) of the [256, 512, 512] result is
      max (x[r, i] * W[i, d] + b[i, d], 0),
  the zero being the float pattern of all zero bits. The formula uses only the float operations themselves, so it is
  stated for any float values; no law of the extended reals is needed to compare the two programs, only that both
  apply these operations to the same entries.

  The same formula over one block of 16 consecutive rows r, the rows of x given as a [16, 512, 1] column block, is
  what one grid point of the kernel produces.
-/
import Idealize.ShloMosaic.PureOps.Ideal
import Idealize.ShloMosaic.Lib.ValueIdx

noncomputable section

namespace Cert.DenseSpec

open Idealize.ShloMosaic Idealize.ShloMosaic.ValueIdx

variable {F : FTy → Type} [FloatOps F]

/-- One entry: the affine map of a scalar followed by the rectifier, `max (x * w + b, 0)`. -/
def reluAffine (x w b : F .f32) : F .f32 :=
  FloatOps.maximumf (FloatOps.addf (FloatOps.mulf x w) b) (FloatOps.ofBits .f32 0x00000000#32)

/-- The whole result: entry `(r, i, d)` is `reluAffine x[r, i] W[i, d] b[i, d]`. -/
def dense (x : FVec F ⟨2, ![256, 512]⟩ .f32) (W b : FVec F ⟨2, ![512, 512]⟩ .f32) :
    FVec F ⟨3, ![256, 512, 512]⟩ .f32 :=
  fun j => reluAffine (x (ix2 (j 0) (j 1))) (W (ix2 (j 1) (j 2))) (b (ix2 (j 1) (j 2)))

/-- One block of 16 rows: entry `(k, i, d)` is `reluAffine xb[k, i, 0] W[i, d] b[i, d]`, where `xb` holds the
    block's 16 rows of `x` as columns. -/
def denseBlock (xb : FVec F ⟨3, ![16, 512, 1]⟩ .f32) (W b : FVec F ⟨2, ![512, 512]⟩ .f32) :
    FVec F ⟨3, ![16, 512, 512]⟩ .f32 :=
  fun y => reluAffine (xb (ix3 (y 0) (y 1) (0 : Fin 1))) (W (ix2 (y 1) (y 2))) (b (ix2 (y 1) (y 2)))

end Cert.DenseSpec

end
-- ==== Proof.LibKeepdims.lean ====
/-
  A row reduction kept as a column (`keepdims`), read by coordinates.

  A lane sum of an `[a, b]` array is, at row `p`, the sum over the lane coordinate `k` of the entry `(p, k)`.
  The sum is then re-laid: cast from `[a]` to the column `[a, 1]` (entry `(i, 0)` is entry `i`), and the column
  broadcast along its unit axis to `[a, b]` (entry `(p, c)` is the column's entry `(p, 0)`). Each lemma states one of
  these three readings at an index written by its coordinates, for any extents.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to the column `[a, 1]` reads, at `(i, u)`, the operand at `i`: both indices have row-major
    position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along its unit axis to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` array from the zero pattern, read at row `p`, is the sum over the lane coordinate
    `k` of the entry `(p, k)`: on the extended reals the sum has no order and the zero it starts from adds nothing. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  refine Finset.sum_congr rfl fun k _ => congrArg src ?_
  funext d
  apply Fin.ext
  match d with
  | ⟨0, _⟩ => rfl
  | ⟨1, _⟩ => rfl

end Cert.Keepdims
-- ==== Proof.Slab.lean ====
/-
  One slab of the kernel's loop, read at an index.

  Trip k of the loop loads row k of the block of x as a [1, 512, 1] column, drops the leading unit axis, broadcasts
  the column along the lanes to [512, 512], multiplies by W, adds b, takes the maximum with zero, and stores the
  [512, 512] result with a unit axis put back in front. Read at (0, i, d) the stored value is therefore
      max (column[0, i, 0] * W[i, d] + b[i, d], 0):
  the two shape casts only rename indices, and the broadcast reads the column's entry of row i at every lane d.
-/
import proofs.«124832_j51092930953908_2_alg».proof.Proof.Gen.KernelIdeal.Skeleton
import proofs.«124832_j51092930953908_2_alg».proof.Proof.Spec
import proofs.«124832_j51092930953908_2_alg».proof.Proof.LibKeepdims
import Idealize.ShloMosaic.Lib.Pipeline.Value
import Idealize.ShloMosaic.Lib.ValueIdx

noncomputable section

namespace Cert.KernelIdeal.Slab

open Cert.KernelIdeal Cert.KernelIdeal.Gen Cert.DenseSpec
open Idealize.ShloMosaic Idealize.ShloMosaic.ValueIdx

variable {F : FTy → Type} [FloatOps F]

/-- The loaded column, with its unit axis dropped and then broadcast along the lanes, reads at `(i, d)` the
    column's entry of row `i`. -/
theorem column_apply (v4 : Vec F S1x512x1 .f32) (i d : Fin 512) :
    broadcastTo S512x512 (shapeCast S512x1 (shapeCast S512x1 v4 shapeCasts_S1x512x1_S512x1) shapeCasts_S512x1_S512x1)
        broadcasts_S512x1_S512x512 (ix2 i d)
      = v4 (ix3 (0 : Fin 1) i (0 : Fin 1)) := by
  refine (Cert.Keepdims.broadcastTo_a1_ab_apply _ broadcasts_S512x1_S512x512 i d).trans ?_
  rw [shapeCast_self]
  refine (shapeCast_dropUnit_apply ![512, 1] v4 shapeCasts_S1x512x1_S512x1 (ix2 i (0 : Fin 1))).trans ?_
  refine congrArg v4 ?_
  funext a
  match a with
  | ⟨0, _⟩ => rfl
  | ⟨1, _⟩ => rfl
  | ⟨2, _⟩ => rfl

/-- The value one trip stores, at `(z, i, d)` of its [1, 512, 512] slab. -/
theorem pay_apply (v0 v1 : Vec F S512x512 .f32) (v4 : Vec F S1x512x1 .f32) (z : Fin 1) (i d : Fin 512) :
    k0_pay1 v0 v1 v4 (ix3 z i d)
      = reluAffine (v4 (ix3 (0 : Fin 1) i (0 : Fin 1))) (v0 (ix2 i d)) (v1 (ix2 i d)) := by
  unfold k0_pay1
  refine (shapeCast_addUnit_apply ![512, 512] _ shapeCasts_S512x512_S1x512x512 (ix3 z i d)).trans ?_
  have e : (fun a : Fin 2 => (ix3 z i d : S1x512x512.Idx) a.succ) = ix2 i d := by
    funext a
    match a with
    | ⟨0, _⟩ => rfl
    | ⟨1, _⟩ => rfl
  rw [e]
  show FloatOps.maximumf (FloatOps.addf (FloatOps.mulf (broadcastTo S512x512 _ broadcasts_S512x1_S512x512 (ix2 i d))
    (v0 (ix2 i d))) (v1 (ix2 i d))) _ = _
  rw [column_apply]
  rfl

end Cert.KernelIdeal.Slab

end
-- ==== Proof.Pieces.lean ====
/-
  What one grid point leaves in the output block.

  The body's loop makes 16 trips; trip k stores one [1, 512, 512] slab at rows k of the [16, 512, 512] block, computed
  from row k of the block of x and from the whole of W and b. The run records these stores as a list of pieces
  (a rectangle of the block and the values stored through it), built up trip by trip.

  Every piece agrees with ONE function of the block index, `denseBlock` of the three input blocks: the slab of trip k
  at its local index (z, i, d) sits at block index (k, i, d), and its value there is max (xb[k, i, 0] * W[i, d] + b[i, d], 0).
  This is proved for the pieces of the first n trips by induction on n. Since the pieces cover the block, the block
  read back after the run is that function everywhere.
-/
import proofs.«124832_j51092930953908_2_alg».proof.Proof.Gen.KernelIdeal.Frame
import proofs.«124832_j51092930953908_2_alg».proof.Proof.Slab
import Idealize.ShloMosaic.Lib.Pipeline.Value

set_option maxRecDepth 16384

noncomputable section

namespace Cert.KernelIdeal.Pieces

open Cert.KernelIdeal Cert.KernelIdeal.Gen Cert.DenseSpec
open Idealize.ShloMosaic Idealize.ShloMosaic.TcCoe Idealize.ShloMosaic.ValueIdx
open Idealize.SL Idealize.SL.Sem

variable {F : FTy → Type} [FloatOps F]

/-- The offsets `(0, 0)` of a whole-buffer load, as the constant zero function. -/
theorem zero_off : (![0, 0] : Fin 2 → Nat) = fun _ => 0 := by
  funext a
  match a with
  | ⟨0, _⟩ => rfl
  | ⟨1, _⟩ => rfl

/-- The slab trip `k` stores agrees with `denseBlock` at the block index it is stored at: local index `(z, i, d)`
    of the slab is block index `(k, i, d)`, and the column loaded for the trip is row `k` of the block of `x`. -/
theorem slab_restricts (arg1 : Memref sig .tc .vmem S16x512x1 .f32) (harg1 : arg1.IsWhole)
    (x0 : Vec F S16x512x1 .f32) (x1 x2 : Vec F S512x512 .f32) (k : Fin k0_t1_loop.trips)
    (x : (Rect.unit (s := S16x512x512) (k0_off2 k) S1x512x512.size (k0_off2_inb k)).shape.Idx) :
    k0_pay1 x1 x2 (View.readAt (Elt F) arg1.view
        (Rect.unit (s := S16x512x1) (k0_off1 k) S1x512x1.size (k0_off1_inb k)).toLoadRect (harg1.unread x0)) x
      = denseBlock x0 x1 x2 ((Rect.unit (s := S16x512x512) (k0_off2 k) S1x512x512.size (k0_off2_inb k)).emb x) := by
  obtain ⟨z, i, d, rfl⟩ : ∃ (z : Fin 1) (i d : Fin 512), x = ix3 z i d := ⟨x 0, x 1, x 2, eq_ix3 x⟩
  refine (Slab.pay_apply x1 x2 _ z i d).trans ?_
  rw [View.readAt_eq_ld, harg1.read_unread]
  have hz : z.val = 0 := by omega
  have h1 := k0_off1_eq k
  have h2 := k0_off2_eq k
  unfold denseBlock
  congr 1
  · refine congrArg x0 ?_
    funext a
    apply Fin.ext
    match a with
    | ⟨0, _⟩ =>
      show k0_off1 k 0 + 1 * 0 = k0_off2 k 0 + 1 * z.val
      rw [h1, h2, hz]
    | ⟨1, _⟩ =>
      show k0_off1 k 1 + 1 * i.val = k0_off2 k 1 + 1 * i.val
      rw [h1, h2]
    | ⟨2, _⟩ =>
      show k0_off1 k 2 + 1 * 0 = 0
      rw [h1]; rfl
  · refine congrArg x1 ?_
    funext a
    apply Fin.ext
    match a with
    | ⟨0, _⟩ =>
      show i.val = k0_off2 k 1 + 1 * i.val
      rw [h2]; show i.val = 0 + 1 * i.val; omega
    | ⟨1, _⟩ =>
      show d.val = k0_off2 k 2 + 1 * d.val
      rw [h2]; show d.val = 0 + 1 * d.val; omega
  · refine congrArg x2 ?_
    funext a
    apply Fin.ext
    match a with
    | ⟨0, _⟩ =>
      show i.val = k0_off2 k 1 + 1 * i.val
      rw [h2]; show i.val = 0 + 1 * i.val; omega
    | ⟨1, _⟩ =>
      show d.val = k0_off2 k 2 + 1 * d.val
      rw [h2]; show d.val = 0 + 1 * d.val; omega

/-- Every piece stored by the first `n` trips agrees with `denseBlock` of the input blocks, at the block indices
    under it: by induction on `n`, the new trip's one piece by `slab_restricts`. -/
theorem pieces_restrict (𝒱 : Variants) (c : Dev nD) (bd : Option 𝒱.V) (i : grid0.Coords)
    (arg1 : Memref sig .tc .vmem S16x512x1 .f32) (harg1 : arg1.IsWhole) (arg2 : Memref sig .tc .vmem S512x512 .f32) (harg2 : arg2.IsWhole)
    (arg3 : Memref sig .tc .vmem S512x512 .f32) (harg3 : arg3.IsWhole) (arg4 : Memref sig .tc .vmem S16x512x512 .f32) (harg4 : arg4.IsWhole)
    (x0 : Vec F S16x512x1 .f32) (x1 x2 : Vec F S512x512 .f32) (n : ℕ) :
    ∀ p ∈ pb_k0_t1 (F := F) 𝒱 c bd i arg1 harg1 arg2 harg2 arg3 harg3 arg4 harg4 x1 x2 (harg1.unread x0) n,
      ∀ x : p.1.shape.Idx, p.2 x = denseBlock x0 x1 x2 (p.1.emb x) := by
  induction n with
  | zero =>
    intro p hp
    rw [pb_k0_t1.eq_1] at hp
    exact absurd hp List.not_mem_nil
  | succ k ih =>
    intro p hp
    rw [pb_k0_t1.eq_2] at hp
    unfold pb_k0_t1Step at hp
    split at hp
    · rcases List.mem_append.mp hp with h | h
      · unfold tripL_k0_t1 trip_k0_t1 at h
        dsimp only at h
        rw [List.mem_singleton] at h
        subst h
        exact slab_restricts arg1 harg1 x0 x1 x2 _
      · exact ih p h
    · exact ih p hp

/-- The output block after the body at one grid point is `denseBlock` of the three input blocks. -/
theorem out_eq (c : Dev nD) (i : grid0.Coords)
    (arg1 : Memref sig .tc .vmem S16x512x1 .f32) (harg1 : arg1.IsWhole) (arg2 : Memref sig .tc .vmem S512x512 .f32) (harg2 : arg2.IsWhole)
    (arg3 : Memref sig .tc .vmem S512x512 .f32) (harg3 : arg3.IsWhole) (arg4 : Memref sig .tc .vmem S16x512x512 .f32) (harg4 : arg4.IsWhole)
    (x0 : Vec F S16x512x1 .f32) (x1 x2 : Vec F S512x512 .f32) :
    out0_A_3 c i arg1 harg1 arg2 harg2 arg3 harg3 arg4 harg4 x0 x1 x2 = denseBlock x0 x1 x2 := by
  unfold out0_A_3
  rw [View.read_writes_eq_canon _ _ _ (cover0_A_3 c i arg1 harg1 arg2 harg2 arg3 harg3 arg4 harg4 x0 x1 x2)]
  funext y
  refine View.canon_apply_of_pieces (denseBlock x0 x1 x2) _ ?_ y
    (cover0_A_3 c i arg1 harg1 arg2 harg2 arg3 harg3 arg4 harg4 x0 x1 x2 y)
  unfold kernelRun0_A
  dsimp only
  simp only [View.readAt_eq_ld, harg2.read_unread, harg3.read_unread, View.ld_unit_zero (S := S512x512) zero_off]
  exact pieces_restrict Variants.none c none i arg1 harg1 arg2 harg2 arg3 harg3 arg4 harg4 x0 x1 x2 _

end Cert.KernelIdeal.Pieces

end
-- ==== Proof.Blocks.lean ====
/-
  From the blocks to the whole output array.

  The grid has 16 points. Point t reads rows 16 t … 16 t + 15 of x (as a [16, 512, 1] column block of x reshaped to
  [256, 512, 1]) and the whole of W and b, and writes back rows 16 t … 16 t + 15 of the [256, 512, 512] output. By
  `Pieces.out_eq` what it writes back is `denseBlock` of those input blocks, and that is exactly the same rows of
  `dense x W b`: block index (k, i, d) at point t is array index (16 t + k, i, d), the column block's entry (k, i, 0)
  is entry (16 t + k, i, 0) of the reshaped x, which is x[16 t + k, i] because the reshape keeps row-major positions,
  and W and b are read at (i, d) unchanged.

  Every row r lies in the block of point r / 16, so the 16 blocks cover the array and the array after the run is
  `dense x W b`.
-/
import proofs.«124832_j51092930953908_2_alg».proof.Proof.Gen.KernelIdeal.Value
import proofs.«124832_j51092930953908_2_alg».proof.Proof.Pieces
import Idealize.ShloMosaic.Lib.Pipeline.Value
import Idealize.ShloMosaic.Lib.StableHlo.Run

set_option maxRecDepth 16384

noncomputable section

namespace Cert.KernelIdeal.Blocks

open Cert.KernelIdeal Cert.KernelIdeal.Gen Cert.DenseSpec
open Idealize.ShloMosaic Idealize.ShloMosaic.TcCoe Idealize.ShloMosaic.ValueIdx
open Idealize.SL Idealize.SL.Sem
open Idealize.ShloMosaic.Pipeline (Dat)

variable {F : FTy → Type} [FloatOps F]
variable (m : (ℓ : Loc nD τ sig) → Buf (Elt F) ℓ) (ρ : Dev nD → PrngReg)

/-- When the region is entered, the buffer the first window stages holds `x` reshaped to a column array. -/
theorem xcol_eq (c : Dev nD) :
    (V m c main_v0 : S256x512x1.Idx → Elt F .f32)
      = shapeCast S256x512x1 (m ((c : Thread nD τ).loc main_arg0)) shapeCasts_S256x512_S256x512x1 := by
  dsimp only [Gen.V, Gen.hostOps0]
  after_results
  rfl

/-- The reshaped `x` at `(r, i, 0)` is `x[r, i]`: both indices have row-major position `512 r + i`. -/
theorem xcol_apply (c : Dev nD) (y : S256x512x1.Idx) (k : S256x512.Idx)
    (h0 : (k 0).val = (y 0).val) (h1 : (k 1).val = (y 1).val) :
    V m c main_v0 y = m ((c : Thread nD τ).loc main_arg0) k := by
  rw [xcol_eq]
  refine shapeCast_apply _ _ y k ?_
  rw [Shape.rowMajor_val_two, Shape.rowMajor_val_three]
  have h2 : (y 2).val = 0 := by have hlt : (y 2).val < 1 := (y 2).isLt; omega
  show (k 0).val * 512 + (k 1).val = ((y 0).val * 512 + (y 1).val) * 1 + (y 2).val
  rw [h0, h1, h2]; omega

/-- The index maps, decided over the 16 grid points: the block of `x` and the output block move together along the
    rows, `W` and `b` stay at their one block. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- What point `t` writes back is block `t` of `dense x W b`. -/
theorem flushed_eq (c : Dev nD) (t : Fin cfg0.N) :
    (dats m 0 c).flushed 3 t = ((cfg0.win 3).blk t).view.read (Elt F)
      (dense (m ((c : Thread nD τ).loc main_arg0)) (m ((c : Thread nD τ).loc main_arg1)) (m ((c : Thread nD τ).loc main_arg2))) := by
  rw [Value.flushed3_A, Pieces.out_eq]
  obtain ⟨a00, a01, a02, a10, a11, a20, a21, a30, a31, a32⟩ := idx_facts t
  funext j
  show denseBlock (iblk m c 0 t) (iblk m c 1 t) (iblk m c 2 t) j
    = dense (m ((c : Thread nD τ).loc main_arg0)) (m ((c : Thread nD τ).loc main_arg1)) (m ((c : Thread nD τ).loc main_arg2))
        (((cfg0.win 3).blk t).view.emb j)
  unfold denseBlock dense
  congr 1
  · show V m c main_v0 (((cfg0.win 0).blk t).view.emb (ix3 (j 0) (j 1) (0 : Fin 1))) = _
    refine xcol_apply m c _ _ ?_ ?_
    · show win0_3.index t (0 : Fin 3) * 16 + 1 * (j 0).val = win0_0.index t (0 : Fin 3) * 16 + 1 * (j 0).val
      rw [a30, a00]
    · show win0_3.index t (1 : Fin 3) * 512 + 1 * (j 1).val = win0_0.index t (1 : Fin 3) * 512 + 1 * (j 1).val
      rw [a31, a01]
  · show V m c main_arg1 (((cfg0.win 1).blk t).view.emb (ix2 (j 1) (j 2))) = _
    rw [V_main_arg1]
    refine congrArg _ ?_
    funext a
    apply Fin.ext
    match a with
    | ⟨0, _⟩ =>
      show win0_1.index t (0 : Fin 2) * 512 + 1 * (j 1).val = win0_3.index t (1 : Fin 3) * 512 + 1 * (j 1).val
      rw [a10, a31]
    | ⟨1, _⟩ =>
      show win0_1.index t (1 : Fin 2) * 512 + 1 * (j 2).val = win0_3.index t (2 : Fin 3) * 512 + 1 * (j 2).val
      rw [a11, a32]
  · show V m c main_arg2 (((cfg0.win 2).blk t).view.emb (ix2 (j 1) (j 2))) = _
    rw [V_main_arg2]
    refine congrArg _ ?_
    funext a
    apply Fin.ext
    match a with
    | ⟨0, _⟩ =>
      show win0_2.index t (0 : Fin 2) * 512 + 1 * (j 1).val = win0_3.index t (1 : Fin 3) * 512 + 1 * (j 1).val
      rw [a20, a31]
    | ⟨1, _⟩ =>
      show win0_2.index t (1 : Fin 2) * 512 + 1 * (j 2).val = win0_3.index t (2 : Fin 3) * 512 + 1 * (j 2).val
      rw [a21, a32]

/-- An index of the output array is in point `t`'s block iff each coordinate is in the block's range on its axis. -/
theorem mem_blk (t : Fin cfg0.N) (i : S256x512x512.Idx) :
    i ∈ ((cfg0.win 3).blk t).view.set ↔ ∀ a : Fin 3, win0_3.index t a * S16x512x512.size a ≤ (i a).val
      ∧ (i a).val < win0_3.index t a * S16x512x512.size a + S16x512x512.size a := by
  show i ∈ ((View.whole main_v1).slice (win0_3.rect t)).set ↔ _
  rw [View.set_slice_whole, Rect.mem_set_unit]
  exact Iff.rfl

/-- Every index of the output array is in some point's block: row `r` is written back by point `r / 16`. -/
theorem cover (i : S256x512x512.Idx) :
    ∃ t : Fin cfg0.N, (cfg0.win 3).flush t = true ∧ i ∈ ((cfg0.win 3).blk t).view.set := by
  have h0 : (i 0).val < 256 := (i 0).isLt
  have h1 : (i 1).val < 512 := (i 1).isLt
  have h2 : (i 2).val < 512 := (i 2).isLt
  have hN : cfg0.N = 16 := N_0
  let t : Fin cfg0.N := ⟨(i 0).val / 16, by rw [hN]; omega⟩
  obtain ⟨-, -, -, -, -, -, -, a30, a31, a32⟩ := idx_facts t
  have ht : t.val = (i 0).val / 16 := rfl
  refine ⟨t, flush0_3 t, ?_⟩
  rw [mem_blk]
  intro a
  match a with
  | ⟨0, _⟩ =>
    show win0_3.index t (0 : Fin 3) * 16 ≤ (i 0).val ∧ (i 0).val < win0_3.index t (0 : Fin 3) * 16 + 16
    rw [a30, ht]; omega
  | ⟨1, _⟩ =>
    show win0_3.index t (1 : Fin 3) * 512 ≤ (i 1).val ∧ (i 1).val < win0_3.index t (1 : Fin 3) * 512 + 512
    rw [a31]; omega
  | ⟨2, _⟩ =>
    show win0_3.index t (2 : Fin 3) * 512 ≤ (i 2).val ∧ (i 2).val < win0_3.index t (2 : Fin 3) * 512 + 512
    rw [a32]; omega

/-- The output array after the run is `dense x W b`. -/
theorem final (c : Dev nD) :
    (dats m 0 c).arrAt 3 cfg0.N
      = dense (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run, read: the result array ends at `dense x W b`, the arguments unchanged. -/
theorem run : θ_run defs (onTc (τ := τ) (main (F := F))) ⟨m, fun _ => 0, ρ⟩ fun r => ∀ c : Dev nD,
      r.2.mem ((c : Thread nD τ).loc main_v1)
        = dense (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Blocks

end
-- ==== Proof.RefSpec.lean ====
/-
  The reference computes `dense`.

  The reference broadcasts x along a new last axis, W and b along a new first axis, multiplies, adds, and takes the
  maximum with a broadcast zero. Read at an index (r, i, d), each chain of two broadcasts reads its operand at the
  coordinates it keeps — x at (r, i), W and b at (i, d) — so the result there is max (x[r, i] * W[i, d] + b[i, d], 0).
-/
import proofs.«124832_j51092930953908_2_alg».proof.Proof.Gen.ReferenceIdeal.Read
import proofs.«124832_j51092930953908_2_alg».proof.Proof.Spec

noncomputable section

namespace Cert.ReferenceIdeal.RefValue

open Cert.ReferenceIdeal Cert.ReferenceIdeal.Read Cert.DenseSpec
open Idealize.ShloMosaic Idealize.ShloMosaic.ValueIdx

variable {F : FTy → Type} [FloatOps F]

/-- The two broadcasts of `x` read it at the first two coordinates. -/
theorem idx_x (i : S256x512x512.Idx) : idx_main_v0 (idx_main_v2 i) = ix2 (i 0) (i 1) := by
  funext a
  match a with
  | ⟨0, _⟩ => rfl
  | ⟨1, _⟩ => rfl

/-- The two broadcasts of `W` read it at the last two coordinates. -/
theorem idx_w (i : S256x512x512.Idx) : idx_main_v1 (idx_main_v3 i) = ix2 (i 1) (i 2) := by
  funext a
  match a with
  | ⟨0, _⟩ => rfl
  | ⟨1, _⟩ => rfl

/-- The two broadcasts of `b` read it at the last two coordinates. -/
theorem idx_b (i : S256x512x512.Idx) : idx_main_v5 (idx_main_v6 i) = ix2 (i 1) (i 2) := by
  funext a
  match a with
  | ⟨0, _⟩ => rfl
  | ⟨1, _⟩ => rfl

/-- The reference's result, as a function of its three arguments, is `dense`. -/
theorem ref_eq (x0 : (⟨S256x512, .f32⟩ : BufTy).Contents (Elt F)) (x1 x2 : (⟨S512x512, .f32⟩ : BufTy).Contents (Elt F)) :
    val_main_v8 (F := F) x0 x1 x2 = dense x0 x1 x2 := by
  funext i
  rw [val_main_v8_apply, val_main_v7_apply, val_main_v4_apply, val_main_v2_apply, val_main_v0_apply,
    val_main_v3_apply, val_main_v1_apply, val_main_v6_apply, val_main_v5_apply, val_main_call0_v0_apply,
    val_main_call0_cst_apply, idx_x, idx_w, idx_b]
  rfl

end Cert.ReferenceIdeal.RefValue

end
-- ==== Proof.lean ====
/-
  The certificate of the per-position dense layer `out[r, i, :] = relu (x[r, i] * W[i, :] + b[i, :])`.

  Both programs compute, at every index (r, i, d) of the [256, 512, 512] result, max (x[r, i] * W[i, d] + b[i, d], 0):
  the same float operations applied to the same entries of the arguments. The kernel does it 16 rows r at a grid point,
  one row per trip of a loop, from x reshaped to columns; the reference does it in one pass over broadcasts. No law of
  arithmetic is needed to identify them, only where each entry is read, so the precondition (finite inputs) is never used.

  * `Spec`     states the result as one function `dense` of the three argument arrays, and its restriction to a block.
  * `Slab`     reads the value one loop trip stores, at an index.
  * `Pieces`   shows the 16 stored slabs of a grid point make up the block function of that point's input blocks.
  * `Blocks`   shows the 16 blocks written back make up `dense` of the arguments, and restates the kernel's run so.
  * `RefSpec`  shows the reference's composed operations are `dense`.
  The three frames are the generated ones (the reference's is its run with the result dropped); the idealization rewrote
  no operation, so there is nothing to preserve.
-/
import proofs.«124832_j51092930953908_2_alg».proof.Defs
import proofs.«124832_j51092930953908_2_alg».proof.Proof.Gen.Kernel
import proofs.«124832_j51092930953908_2_alg».proof.Proof.Gen.Kernel.Frame
import proofs.«124832_j51092930953908_2_alg».proof.Proof.Gen.KernelIdeal
import proofs.«124832_j51092930953908_2_alg».proof.Proof.Gen.KernelIdeal.Frame
import proofs.«124832_j51092930953908_2_alg».proof.Proof.Gen.KernelIdeal.Value
import proofs.«124832_j51092930953908_2_alg».proof.Proof.Gen.ReferenceIdeal
import proofs.«124832_j51092930953908_2_alg».proof.Proof.Gen.ReferenceIdeal.Run
import proofs.«124832_j51092930953908_2_alg».proof.Proof.Gen.ReferenceIdeal.Read
import proofs.«124832_j51092930953908_2_alg».proof.Proof.Gen.Pre_finite_inputs
import proofs.«124832_j51092930953908_2_alg».proof.Proof.Blocks
import proofs.«124832_j51092930953908_2_alg».proof.Proof.RefSpec
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals the kernel's result array and the reference's are both `dense` of the arguments, and the
    arguments agree. -/
theorem algebraic : Cert.algebraic_KernelIdeal_ReferenceIdeal := by
  intro m ρ m' ρ' _ hagree
  refine ⟨_, Cert.KernelIdeal.Blocks.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
